-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S128x256 .f32) (main_arg4 : FVec F S128 .f32) (main_arg5 : FVec F S64x128 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S5000x64 : Shape := ⟨2, ![5000, 64]⟩
abbrev S1x64 : Shape := ⟨2, ![1, 64]⟩
abbrev S1600000x64 : Shape := ⟨2, ![1600000, 64]⟩
abbrev S5000 : Shape := ⟨1, ![5000]⟩
abbrev S5000x1 : Shape := ⟨2, ![5000, 1]⟩

abbrev nBuf : Space → Nat
  | .hbm => 50
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S128x256, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x64, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S64x128, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S5000x256_S128x256_S5000x128_1_1_0_0_n_n_wf : DotDims.WF S5000x256 S128x256 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S64x128_S5000x64_1_1_0_0_n_n_wf : DotDims.WF S5000x128 S64x128 S5000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S256x128 : Shape := ⟨2, ![256, 128]⟩
abbrev S100000x128 : Shape := ⟨2, ![100000, 128]⟩
abbrev S1x128 : Shape := ⟨2, ![1, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S128x256, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S256x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S128x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S1x1600000, .i32⟩
  | .hbm, ⟨41, _⟩ => ⟨S1600000, .i32⟩
  | .hbm, ⟨42, _⟩ => ⟨S1x1600000, .i32⟩
  | .hbm, ⟨43, _⟩ => ⟨S1600000, .i32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x64, .f32⟩
  | .hbm, ⟨69, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_1 : Ref sig .tc := ⟨.hbm, 45, rfl⟩
abbrev main_v33 : Ref sig .tc := ⟨.hbm, 46, rfl⟩
abbrev main_v34 : Ref sig .tc := ⟨.hbm, 47, rfl⟩
abbrev main_c_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result named. @main is five segments: the first linear layer's region, the host's
  gather / scale / scatter-add, the second linear layer's region (ReLU inside), the host's second gather / scale /
  scatter-add, and the row-normalizing region. Every weakly fair execution terminates, and in the final memory every
  buffer that outlives a region holds the last boundary's contents; read at the result buffer, that is what the last
  region's write-backs leave there, and read at an argument it is the launch contents.
-/
import proofs.«153355_j43705587204594_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the result array ends at the last boundary's contents and each
    argument array as launched. -/
theorem run_named : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Whole

end
-- ==== Proof.Host.lean ====
/-
  The host stretches between the kernel regions. Each gathers the rows named by the second row of the edge list (a negative
  index wrapped once by the row count), scales them by the edge weights and scatter-adds them into zeros at the rows
  named by the first row of the edge list: operation for operation the reference's own aggregation, so whenever the
  dense input and the two edge arrays are the reference's, the stretch's result is the reference's stage. Nothing here
  looks inside the gather or the scatter. The stretches write none of the weight, bias or edge buffers.
-/
import proofs.«153355_j43705587204594_1_alg».proof.Proof.Gen.KernelIdeal.Frame
import proofs.«153355_j43705587204594_1_alg».proof.Proof.Gen.ReferenceIdeal.Read
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The first aggregation: from the first linear layer's output and the edge arrays to the reference's first aggregate. -/
theorem aggregate1 (W : Valuation τ sig (Elt F)) (x0 : (⟨Cert.ReferenceIdeal.S100000x256, .f32⟩ : BufTy).Contents (Elt F)) (x1 : (⟨Cert.ReferenceIdeal.S2x1600000, .i32⟩ : BufTy).Contents (Elt F))
    (x2 : (⟨Cert.ReferenceIdeal.S1600000, .f32⟩ : BufTy).Contents (Elt F)) (x3 : (⟨Cert.ReferenceIdeal.S128x256, .f32⟩ : BufTy).Contents (Elt F))
    (x4 : (⟨Cert.ReferenceIdeal.S128, .f32⟩ : BufTy).Contents (Elt F))
    (h0 : W (Proc.devRef .tc main_v0) = Cert.ReferenceIdeal.Read.val_main_v4 (F := F) x0 x3 x4)
    (h1 : W (Proc.devRef .tc main_arg1) = x1) (h2 : W (Proc.devRef .tc main_arg2) = x2) :
    StableHlo.after hostOps1 W (Proc.devRef .tc main_v17) = Cert.ReferenceIdeal.Read.val_main_v21 (F := F) x0 x1 x2 x3 x4 := by
  after_results_simp
  rw [h0, h1, h2]
  rfl

set_option maxHeartbeats 4000000 in
/-- The second aggregation: from the second linear layer's output and the edge arrays to the reference's second aggregate. -/
theorem aggregate2 (W : Valuation τ sig (Elt F)) (x0 : (⟨Cert.ReferenceIdeal.S100000x256, .f32⟩ : BufTy).Contents (Elt F)) (x1 : (⟨Cert.ReferenceIdeal.S2x1600000, .i32⟩ : BufTy).Contents (Elt F))
    (x2 : (⟨Cert.ReferenceIdeal.S1600000, .f32⟩ : BufTy).Contents (Elt F)) (x3 : (⟨Cert.ReferenceIdeal.S128x256, .f32⟩ : BufTy).Contents (Elt F))
    (x4 : (⟨Cert.ReferenceIdeal.S128, .f32⟩ : BufTy).Contents (Elt F)) (x5 : (⟨Cert.ReferenceIdeal.S64x128, .f32⟩ : BufTy).Contents (Elt F))
    (x6 : (⟨Cert.ReferenceIdeal.S64, .f32⟩ : BufTy).Contents (Elt F))
    (h0 : W (Proc.devRef .tc main_v18) = Cert.ReferenceIdeal.Read.val_main_v27 (F := F) x0 x1 x2 x3 x4 x5 x6)
    (h1 : W (Proc.devRef .tc main_arg1) = x1) (h2 : W (Proc.devRef .tc main_arg2) = x2) :
    StableHlo.after hostOps2 W (Proc.devRef .tc main_v35) = Cert.ReferenceIdeal.Read.val_main_v44 (F := F) x0 x1 x2 x3 x4 x5 x6 := by
  after_results_simp
  rw [h0, h1, h2]
  rfl

set_option maxHeartbeats 4000000 in
/-- The first stretch leaves the edge list, the edge weights and the second layer's weights and bias as it found them. -/
theorem hostOps1_keeps (W : Valuation τ sig (Elt F)) :
    StableHlo.after hostOps1 W (Proc.devRef .tc main_arg1) = W (Proc.devRef .tc main_arg1)
    ∧ StableHlo.after hostOps1 W (Proc.devRef .tc main_arg2) = W (Proc.devRef .tc main_arg2)
    ∧ StableHlo.after hostOps1 W (Proc.devRef .tc main_arg5) = W (Proc.devRef .tc main_arg5)
    ∧ StableHlo.after hostOps1 W (Proc.devRef .tc main_arg6) = W (Proc.devRef .tc main_arg6) := by
  refine ⟨?_, ?_, ?_, ?_⟩ <;> (after_results_simp <;> rfl)

end Cert.KernelIdeal.Whole

end
-- ==== Proof.RefStages.lean ====
/-
  The reference's three dense stages read at a row and a column, at the ideal values.
  * The first linear layer: entry (r, q) is the sum over k of x[r, k] · W1[q, k], plus b1[q] — the host contracts x with
    the transpose of W1, and the transpose read at (k, q) is W1 at (q, k).
  * The second linear layer, applied to the rectified first aggregate h: the sum over k of max(h[r, k], 0) · W2[q, k],
    plus b2[q].
  * The row normalization of the second aggregate z: z[r, q] divided by max(sqrt(0 + Σ_k z[r, k]²), ε), ε the one
    float literal of the program.
  The two sparse aggregations in between (a gather of rows, a scaling by the edge weights, a scatter-add) are never
  opened: they stay the named stages of the reference.
-/
import proofs.«153355_j43705587204594_1_alg».proof.Proof.Gen.ReferenceIdeal.Read

noncomputable section

namespace Cert.ReferenceIdeal.Stages

open Cert.ReferenceIdeal Cert.ReferenceIdeal.Read Idealize.ShloMosaic Idealize.ShloMosaic.ValueIdx

variable (x0 : (⟨S100000x256, .f32⟩ : BufTy).Contents (Elt Ideal)) (x1 : (⟨S2x1600000, .i32⟩ : BufTy).Contents (Elt Ideal))
  (x2 : (⟨S1600000, .f32⟩ : BufTy).Contents (Elt Ideal)) (x3 : (⟨S128x256, .f32⟩ : BufTy).Contents (Elt Ideal))
  (x4 : (⟨S128, .f32⟩ : BufTy).Contents (Elt Ideal)) (x5 : (⟨S64x128, .f32⟩ : BufTy).Contents (Elt Ideal))
  (x6 : (⟨S64, .f32⟩ : BufTy).Contents (Elt Ideal))

/-- The first linear layer at (r, q): Σ_k x[r, k] · W1[q, k] + b1[q]. -/
theorem lin1_apply (r : Fin 100000) (q : Fin 128) :
    val_main_v4 (F := Ideal) x0 x3 x4 (ix2 r q) = (∑ k : Fin 256, x0 (ix2 r k) * x3 (ix2 q k)) + x4 (ix1 q) := by
  have e1 : ∀ k : Fin 256, lidx_main_v1 (ix2 r q) k = ix2 r k := fun k =>
    funext fun a => Fin.ext (by match a with | ⟨0, _⟩ => rfl | ⟨1, _⟩ => rfl)
  have e2 : ∀ k : Fin 256, idx_main_v0 (ridx_main_v1 (ix2 r q) k) = ix2 q k := fun k =>
    funext fun a => Fin.ext (by match a with | ⟨0, _⟩ => rfl | ⟨1, _⟩ => rfl)
  have e3 : idx_main_v2 (idx_main_v3 (ix2 r q)) = ix1 q :=
    funext fun a => Fin.ext (by match a with | ⟨0, _⟩ => rfl)
  rw [val_main_v4_apply, val_main_v1_apply, val_main_v3_apply, val_main_v2_apply, Ideal.addf_def]
  refine congrArg₂ (· + ·) (Finset.sum_congr rfl fun k _ => ?_) (congrArg x4 e3)
  rw [val_main_v0_apply]
  exact congrArg₂ (· * ·) (congrArg x0 (e1 k)) (congrArg x3 (e2 k))

/-- The second linear layer at (r, q), over the first aggregate h: Σ_k max(h[r, k], 0) · W2[q, k] + b2[q]. -/
theorem lin2_apply (r : Fin 100000) (q : Fin 64) :
    val_main_v27 (F := Ideal) x0 x1 x2 x3 x4 x5 x6 (ix2 r q)
      = (∑ k : Fin 128, max (val_main_v21 (F := Ideal) x0 x1 x2 x3 x4 (ix2 r k)) (FloatOps.ofBits (F := Ideal) .f32 0x00000000#32) * x5 (ix2 q k))
        + x6 (ix1 q) := by
  have e1 : ∀ k : Fin 128, lidx_main_v24 (ix2 r q) k = ix2 r k := fun k =>
    funext fun a => Fin.ext (by match a with | ⟨0, _⟩ => rfl | ⟨1, _⟩ => rfl)
  have e2 : ∀ k : Fin 128, idx_main_v23 (ridx_main_v24 (ix2 r q) k) = ix2 q k := fun k =>
    funext fun a => Fin.ext (by match a with | ⟨0, _⟩ => rfl | ⟨1, _⟩ => rfl)
  have e3 : idx_main_v25 (idx_main_v26 (ix2 r q)) = ix1 q :=
    funext fun a => Fin.ext (by match a with | ⟨0, _⟩ => rfl)
  rw [val_main_v27_apply, val_main_v24_apply, val_main_v26_apply, val_main_v25_apply, Ideal.addf_def]
  refine congrArg₂ (· + ·) (Finset.sum_congr rfl fun k _ => ?_) (congrArg x6 e3)
  rw [val_main_v23_apply, val_main_v22_apply, val_main_call0_v0_apply, val_main_call0_cst_apply, Ideal.maximumf_def]
  exact congrArg₂ (· * ·) (congrArg (fun i => max (val_main_v21 (F := Ideal) x0 x1 x2 x3 x4 i) _) (e1 k)) (congrArg x5 (e2 k))

/-- The row normalization at (r, q), over the second aggregate z: z[r, q] / max(sqrt(0 + Σ_k z[r, k]²), ε). -/
theorem norm_apply (r : Fin 100000) (q : Fin 64) :
    val_main_v52 (F := Ideal) x0 x1 x2 x3 x4 x5 x6 (ix2 r q)
      = Ideal.div (val_main_v44 (F := Ideal) x0 x1 x2 x3 x4 x5 x6 (ix2 r q))
          (max (Ideal.sqrt (FloatOps.ofBits (F := Ideal) .f32 0x00000000#32
              + ∑ k : Fin 64, val_main_v44 (F := Ideal) x0 x1 x2 x3 x4 x5 x6 (ix2 r k) * val_main_v44 (F := Ideal) x0 x1 x2 x3 x4 x5 x6 (ix2 r k)))
            (FloatOps.ofBits (F := Ideal) .f32 0x2B8CBCCC#32)) := by
  have e1 : ∀ k : Fin 64, idx_main_v46 (idx_main_v47 (idx_main_v51 (ix2 r q))) k = ix2 r k := fun k =>
    funext fun a => Fin.ext (by match a with | ⟨0, _⟩ => rfl | ⟨1, _⟩ => rfl)
  rw [val_main_v52_apply, val_main_v51_apply, val_main_v50_apply, val_main_v48_apply, val_main_v47_apply, val_main_v46_apply,
    val_main_v49_apply, val_main_cst_5_apply, val_main_cst_4_apply, Ideal.hostDivf_def, Ideal.maximumf_def, Ideal.hostUnary_sqrt_def]
  have hs : (∑ k : Fin 64, val_main_v45 (F := Ideal) x0 x1 x2 x3 x4 x5 x6 (idx_main_v46 (idx_main_v47 (idx_main_v51 (ix2 r q))) k))
      = ∑ k : Fin 64, val_main_v44 (F := Ideal) x0 x1 x2 x3 x4 x5 x6 (ix2 r k) * val_main_v44 (F := Ideal) x0 x1 x2 x3 x4 x5 x6 (ix2 r k) :=
    Finset.sum_congr rfl fun k _ => by rw [val_main_v45_apply, Ideal.mulf_def, e1 k]
  rw [hs]

end Cert.ReferenceIdeal.Stages

end
-- ==== Proof.LibLayout.lean ====
/-
  Three layout operations of a tiled kernel body read at a row and a column, for any element type and any extents:
  a vector cast to one row and broadcast down the rows (a bias added to every row), a vector cast to one column (a
  row-wise reduction kept as a column), and one column broadcast along the columns (a per-row scale applied to every
  entry of the row).
-/
import Idealize.ShloMosaic.Lib.ValueIdx
import Idealize.ShloMosaic.Lib.Pipeline.Value

namespace Cert.Lib.Layout

open Idealize.ShloMosaic Idealize.ShloMosaic.ValueIdx

/-- A vector of n entries, cast to one row and broadcast down m rows, read at (p, q), is its entry q. -/
theorem row_broadcast_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- A vector of m entries cast to one column, read at (p, 0), is its entry p. -/
theorem col_cast_apply {α : Type} {m : Nat} (x : (⟨1, ![m]⟩ : Shape).Idx → α)
    (h : (⟨1, ![m]⟩ : Shape).ShapeCasts ⟨2, ![m, 1]⟩) (p : Fin m) :
    shapeCast ⟨2, ![m, 1]⟩ x h (ix2 p (0 : Fin 1)) = x (ix1 p) :=
  shapeCast_apply x h (ix2 p (0 : Fin 1)) (ix1 p) (by
    rw [Shape.rowMajor_val_two, Shape.rowMajor_val_one]; show p.val = p.val * 1 + 0; omega)

/-- One column broadcast along n columns, read at (p, q), is the column's entry p. -/
theorem col_broadcast_apply {α : Type} {m n : Nat} (y : (⟨2, ![m, 1]⟩ : Shape).Idx → α)
    (hb : (⟨2, ![m, 1]⟩ : Shape).Broadcasts ⟨2, ![m, n]⟩) (p : Fin m) (q : Fin n) :
    broadcastTo ⟨2, ![m, n]⟩ y hb (ix2 p q) = y (ix2 p (0 : Fin 1)) :=
  broadcastTo_apply y hb (ix2 p q) (ix2 p (0 : Fin 1)) (by
    intro a
    match a with
    | ⟨0, _⟩ =>
      show p.val = if m = 1 then 0 else p.val
      split
      · have := p.isLt; omega
      · rfl
    | ⟨1, _⟩ => show (0 : Nat) = if (1 : Nat) = 1 then 0 else q.val; rw [if_pos rfl])

end Cert.Lib.Layout
-- ==== Proof.Linear1.lean ====
/-
  The first linear layer's region. Its grid is twenty points; point t loads rows 5000·t … 5000·t + 4999 of x, all of
  W1 and b1, and stores the [5000, 128] block of x·W1ᵀ + b1 for those rows. At the ideal values a change of float
  format is the identity and a matrix product into a zero accumulator is the plain sum over the contracted axis, so
  each stored entry is Σ_k x[r, k] · W1[q, k] + b1[q]: the reference's first linear layer at that row and column. The
  twenty row blocks tile the output array, so after the region the whole array is the reference's stage.
-/
import proofs.«153355_j43705587204594_1_alg».proof.Proof.Gen.KernelIdeal.Frame
import proofs.«153355_j43705587204594_1_alg».proof.Proof.Gen.ReferenceIdeal.Read
import proofs.«153355_j43705587204594_1_alg».proof.Proof.RefStages
import proofs.«153355_j43705587204594_1_alg».proof.Proof.LibLayout
import Idealize.ShloMosaic.Lib.ValueIdx
import Idealize.ShloMosaic.Lib.Pipeline.Value
import Idealize.ShloMosaic.PureOps.Ideal.Laws

set_option maxRecDepth 16384

noncomputable section

namespace Cert.KernelIdeal.Linear1

open Idealize.ShloMosaic Idealize.ShloMosaic.TcCoe Idealize.SL.Sem Idealize.ShloMosaic.ValueIdx
open Cert.KernelIdeal Cert.KernelIdeal.Gen
open Cert.Lib.Layout (row_broadcast_apply)

/-- The matrix product's operand indices: the left operand is read at (row of the output, k), the right at (column of
    the output, k) — both operands are contracted along their second axis. -/
theorem lhs0 (j : S5000x128.Idx) (k : dot_S5000x256_S128x256_S5000x128_1_1_0_0_n_n.contr.Idx) : (dot_S5000x256_S128x256_S5000x128_1_1_0_0_n_n.lhsIdx j k 0).val = (j 0).val := by
  unfold DotDims.lhsIdx
  rw [dif_neg (show ¬(0 : Fin S5000x256.rank) ∈ dot_S5000x256_S128x256_S5000x128_1_1_0_0_n_n.lhsBatch by decide), dif_pos (show (0 : Fin S5000x256.rank) ∈ dot_S5000x256_S128x256_S5000x128_1_1_0_0_n_n.lhsNonContracting by decide)]
  rfl
theorem lhs1 (j : S5000x128.Idx) (k : dot_S5000x256_S128x256_S5000x128_1_1_0_0_n_n.contr.Idx) : (dot_S5000x256_S128x256_S5000x128_1_1_0_0_n_n.lhsIdx j k 1).val = (k ⟨0, by decide⟩).val :=
  dot_S5000x256_S128x256_S5000x128_1_1_0_0_n_n.lhsIdx_val_of_single rfl j k
theorem rhs0 (j : S5000x128.Idx) (k : dot_S5000x256_S128x256_S5000x128_1_1_0_0_n_n.contr.Idx) : (dot_S5000x256_S128x256_S5000x128_1_1_0_0_n_n.rhsIdx j k 0).val = (j 1).val := by
  unfold DotDims.rhsIdx
  rw [dif_neg (show ¬(0 : Fin S128x256.rank) ∈ dot_S5000x256_S128x256_S5000x128_1_1_0_0_n_n.rhsBatch by decide), dif_pos (show (0 : Fin S128x256.rank) ∈ dot_S5000x256_S128x256_S5000x128_1_1_0_0_n_n.rhsNonContracting by decide)]
  rfl
theorem rhs1 (j : S5000x128.Idx) (k : dot_S5000x256_S128x256_S5000x128_1_1_0_0_n_n.contr.Idx) : (dot_S5000x256_S128x256_S5000x128_1_1_0_0_n_n.rhsIdx j k 1).val = (k ⟨0, by decide⟩).val :=
  dot_S5000x256_S128x256_S5000x128_1_1_0_0_n_n.rhsIdx_val_of_single rfl j k

/-- The body's stored value at (p, q): Σ_k x[p, k] · W[q, k] + b[q] (a change of float format is the identity). -/
theorem pay_apply (v0 : Vec Ideal S5000x256 .f32) (v2 : Vec Ideal S128x256 .f32) (v5 : Vec Ideal S128 .f32) (p : Fin 5000) (q : Fin 128) :
    k0_pay1 (F := Ideal) v0 v2 v5 (ix2 p q) = (∑ k : Fin 256, v0 (ix2 p k) * v2 (ix2 q k)) + v5 (ix1 q) := by
  unfold k0_pay1
  show FloatOps.matmul (F := Ideal) dot_S5000x256_S128x256_S5000x128_1_1_0_0_n_n none (truncf (F := Ideal) .bf16 v0 bitsLt_bf16_f32) (truncf (F := Ideal) .bf16 v2 bitsLt_bf16_f32) (constant (F := Ideal) S5000x128 .f32 0x00000000#32) (ix2 p q)
      + broadcastTo S5000x128 (shapeCast S1x128 v5 shapeCasts_S128_S1x128) broadcasts_S1x128_S5000x128 (ix2 p q) = _
  refine congrArg₂ (· + ·) ?_ (row_broadcast_apply v5 _ _ p q)
  refine (Ideal.matmul_constant_zero_apply dot_S5000x256_S128x256_S5000x128_1_1_0_0_n_n none _ _ (ix2 p q)).trans ?_
  rw [← Equiv.sum_comp (ValueIdx.contrEquiv1 dot_S5000x256_S128x256_S5000x128_1_1_0_0_n_n 256 rfl rfl).symm]
  refine Finset.sum_congr rfl fun k _ => ?_
  have hk := ValueIdx.contrEquiv1_symm_val dot_S5000x256_S128x256_S5000x128_1_1_0_0_n_n 256 rfl rfl k
  have el : dot_S5000x256_S128x256_S5000x128_1_1_0_0_n_n.lhsIdx (ix2 p q) ((ValueIdx.contrEquiv1 dot_S5000x256_S128x256_S5000x128_1_1_0_0_n_n 256 rfl rfl).symm k) = ix2 p k := funext fun a => Fin.ext (by
    match a with
    | ⟨0, _⟩ => exact lhs0 _ _
    | ⟨1, _⟩ => exact (lhs1 _ _).trans hk)
  have er : dot_S5000x256_S128x256_S5000x128_1_1_0_0_n_n.rhsIdx (ix2 p q) ((ValueIdx.contrEquiv1 dot_S5000x256_S128x256_S5000x128_1_1_0_0_n_n 256 rfl rfl).symm k) = ix2 q k := funext fun a => Fin.ext (by
    match a with
    | ⟨0, _⟩ => exact rhs0 _ _
    | ⟨1, _⟩ => exact (rhs1 _ _).trans hk)
  show v0 (dot_S5000x256_S128x256_S5000x128_1_1_0_0_n_n.lhsIdx (ix2 p q) _) * v2 (dot_S5000x256_S128x256_S5000x128_1_1_0_0_n_n.rhsIdx (ix2 p q) _) = _
  rw [el, er]

/-- The body's stored value at an index of the block is the reference's first linear layer at an index of the array,
    whenever the row of x, the row of W1 and the entry of b1 that the two read agree. -/
theorem point (x0 : (⟨Cert.ReferenceIdeal.S100000x256, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal))
    (v0 : Vec Ideal S5000x256 .f32) (v2 : Vec Ideal S128x256 .f32) (v5 : Vec Ideal S128 .f32)
    (j : S5000x128.Idx) (i : Cert.ReferenceIdeal.S100000x128.Idx)
    (h0 : ∀ k : Fin 256, v0 (ix2 (j 0) k) = x0 (ix2 (i 0) k))
    (h2 : ∀ k : Fin 256, v2 (ix2 (j 1) k) = x3 (ix2 (i 1) k))
    (h5 : v5 (ix1 (j 1)) = x4 (ix1 (i 1))) :
    k0_pay1 (F := Ideal) v0 v2 v5 j = Cert.ReferenceIdeal.Read.val_main_v4 (F := Ideal) x0 x3 x4 i :=
  calc k0_pay1 (F := Ideal) v0 v2 v5 j
      = k0_pay1 (F := Ideal) v0 v2 v5 (ix2 (j 0) (j 1)) := congrArg _ (eq_ix2 j)
    _ = (∑ k : Fin 256, v0 (ix2 (j 0) k) * v2 (ix2 (j 1) k)) + v5 (ix1 (j 1)) := pay_apply v0 v2 v5 (j 0) (j 1)
    _ = (∑ k : Fin 256, x0 (ix2 (i 0) k) * x3 (ix2 (i 1) k)) + x4 (ix1 (i 1)) :=
        congrArg₂ (· + ·) (Finset.sum_congr rfl fun k _ => congrArg₂ (· * ·) (h0 k) (h2 k)) h5
    _ = Cert.ReferenceIdeal.Read.val_main_v4 (F := Ideal) x0 x3 x4 (ix2 (i 0) (i 1)) := (Cert.ReferenceIdeal.Stages.lin1_apply x0 x3 x4 (i 0) (i 1)).symm
    _ = Cert.ReferenceIdeal.Read.val_main_v4 (F := Ideal) x0 x3 x4 i := congrArg _ (eq_ix2 i).symm

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the rows of x and of the output move with the grid point, everything else stays
    at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- If the body's stored value, at every index of every point's block, is an array G at the block's array index, then what
    point t writes back is block t of G. -/
theorem flushed_of_point (c : Dev nD) (G : (⟨Cert.ReferenceIdeal.S100000x128, .f32⟩ : BufTy).Contents (Elt Ideal))
    (hG : ∀ (t : Fin cfg0.N) (j : S5000x128.Idx),
      k0_pay1 (F := Ideal) (iblk0 V c 0 t) (iblk0 V c 1 t) (iblk0 V c 2 t) j = G (((cfg0.win 3).blk t).view.emb j))
    (t : Fin cfg0.N) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero hz2]
  simp only [View.ld_unit_zero (S := S5000x256) hz2, View.ld_unit_zero (S := S128x256) hz2, View.ld_unit_zero (S := S128) hz1]
  funext j
  exact hG t j

/-- The body's stored value at an index of point t's block is the reference's first linear layer, of the arrays the
    region finds, at the block's array index: the block of x that point t loads holds the rows the output block names,
    and the whole of W1 and b1 are loaded at every point. -/
theorem stored_eq (c : Dev nD) (x0 : (⟨Cert.ReferenceIdeal.S100000x256, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal))
    (h0 : V c main_arg0 = x0) (h3 : V c main_arg3 = x3) (h4 : V c main_arg4 = x4)
    (t : Fin cfg0.N) (j : S5000x128.Idx) :
    k0_pay1 (F := Ideal) (iblk0 V c 0 t) (iblk0 V c 1 t) (iblk0 V c 2 t) j
      = Cert.ReferenceIdeal.Read.val_main_v4 (F := Ideal) x0 x3 x4 (((cfg0.win 3).blk t).view.emb j) := by
  obtain ⟨e00, e01, e10, e11, e20, e30, e31⟩ := idx_facts t
  refine point x0 x3 x4 _ _ _ j _ (fun k => ?_) (fun k => ?_) ?_
  · show V c main_arg0 (((cfg0.win 0).blk t).view.emb (ix2 (j 0) k)) = _
    refine (congrFun h0 _).trans ?_
    refine congrArg x0 (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show V c main_arg3 (((cfg0.win 1).blk t).view.emb (ix2 (j 1) k)) = _
    refine (congrFun h3 _).trans ?_
    refine congrArg x3 (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 256 + 1 * k.val = k.val; omega
  · show V c main_arg4 (((cfg0.win 2).blk t).view.emb (ix1 (j 1))) = _
    refine (congrFun h4 _).trans ?_
    refine congrArg x4 (funext fun a => Fin.ext ?_)
    match a with
    | ⟨0, _⟩ => show win0_2.index t (0 : Fin 1) * 128 + 1 * (j 1).val = win0_3.index t (1 : Fin 2) * 128 + 1 * (j 1).val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Row r of the output lies in the block of point r / 5000: the twenty row blocks tile the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have ht : (i 0).val / 5000 < grid0.N := by omega
  refine ⟨⟨(i 0).val / 5000, ht⟩, flush0_3 _, ?_⟩
  rw [mem_blk]
  obtain ⟨-, -, -, -, -, e30, e31⟩ := idx_facts ⟨(i 0).val / 5000, ht⟩
  have e30' : win0_3.index ⟨(i 0).val / 5000, ht⟩ (0 : Fin 2) = (i 0).val / 5000 := e30
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 128 ≤ (i 1).val ∧ (i 1).val < win0_3.index ⟨(i 0).val / 5000, ht⟩ (1 : Fin 2) * 128 + 128; omega

/-- After the region, its output array is the reference's first linear layer of the arrays it found. -/
theorem final (c : Dev nD) (x0 : (⟨Cert.ReferenceIdeal.S100000x256, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal))
    (h0 : V c main_arg0 = x0) (h3 : V c main_arg3 = x3) (h4 : V c main_arg4 = x4) :
    (dat0 V c).arrAt 3 cfg0.N = Cert.ReferenceIdeal.Read.val_main_v4 (F := Ideal) x0 x3 x4 :=
  (dat0 V c).arrAt_eq_of_cover 3 _ (fun t _ => flushed_of_point V c _ (stored_eq V c x0 x3 x4 h0 h3 h4) t) cover

end Cert.KernelIdeal.Linear1

end
-- ==== Proof.Linear2.lean ====
/-
  The second linear layer's region, ReLU inside. Point t of its twenty loads rows 5000·t … 5000·t + 4999 of the first
  aggregate h, all of W2 and b2, and stores the [5000, 64] block of max(h, 0)·W2ᵀ + b2 for those rows. At the ideal
  values each stored entry is Σ_k max(h[r, k], 0) · W2[q, k] + b2[q]: the reference's ReLU followed by its second
  linear layer, at that row and column. The twenty row blocks tile the output array.
-/
import proofs.«153355_j43705587204594_1_alg».proof.Proof.Gen.KernelIdeal.Frame
import proofs.«153355_j43705587204594_1_alg».proof.Proof.Gen.ReferenceIdeal.Read
import proofs.«153355_j43705587204594_1_alg».proof.Proof.RefStages
import proofs.«153355_j43705587204594_1_alg».proof.Proof.Linear1
import proofs.«153355_j43705587204594_1_alg».proof.Proof.LibLayout
import Idealize.ShloMosaic.Lib.ValueIdx
import Idealize.ShloMosaic.Lib.Pipeline.Value
import Idealize.ShloMosaic.PureOps.Ideal.Laws

set_option maxRecDepth 16384

noncomputable section

namespace Cert.KernelIdeal.Linear2

open Idealize.ShloMosaic Idealize.ShloMosaic.TcCoe Idealize.SL.Sem Idealize.ShloMosaic.ValueIdx
open Cert.KernelIdeal Cert.KernelIdeal.Gen
open Cert.KernelIdeal.Linear1 (hz1 hz2)
open Cert.Lib.Layout (row_broadcast_apply)

/-- The matrix product's operand indices: the left operand is read at (row of the output, k), the right at (column of
    the output, k) — both operands are contracted along their second axis. -/
theorem lhs0 (j : S5000x64.Idx) (k : dot_S5000x128_S64x128_S5000x64_1_1_0_0_n_n.contr.Idx) : (dot_S5000x128_S64x128_S5000x64_1_1_0_0_n_n.lhsIdx j k 0).val = (j 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem lhs1 (j : S5000x64.Idx) (k : dot_S5000x128_S64x128_S5000x64_1_1_0_0_n_n.contr.Idx) : (dot_S5000x128_S64x128_S5000x64_1_1_0_0_n_n.lhsIdx j k 1).val = (k ⟨0, by decide⟩).val :=
  dot_S5000x128_S64x128_S5000x64_1_1_0_0_n_n.lhsIdx_val_of_single rfl j k
theorem rhs0 (j : S5000x64.Idx) (k : dot_S5000x128_S64x128_S5000x64_1_1_0_0_n_n.contr.Idx) : (dot_S5000x128_S64x128_S5000x64_1_1_0_0_n_n.rhsIdx j k 0).val = (j 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem rhs1 (j : S5000x64.Idx) (k : dot_S5000x128_S64x128_S5000x64_1_1_0_0_n_n.contr.Idx) : (dot_S5000x128_S64x128_S5000x64_1_1_0_0_n_n.rhsIdx j k 1).val = (k ⟨0, by decide⟩).val :=
  dot_S5000x128_S64x128_S5000x64_1_1_0_0_n_n.rhsIdx_val_of_single rfl j k

/-- The body's stored value at (p, q): Σ_k max(h[p, k], 0) · W[q, k] + b[q]. -/
theorem pay_apply (v0 : Vec Ideal S5000x128 .f32) (v5 : Vec Ideal S64x128 .f32) (v8 : Vec Ideal S64 .f32) (p : Fin 5000) (q : Fin 64) :
    k1_pay1 (F := Ideal) v0 v5 v8 (ix2 p q)
      = (∑ k : Fin 128, max (v0 (ix2 p k)) (FloatOps.ofBits (F := Ideal) .f32 0x00000000#32) * v5 (ix2 q k)) + v8 (ix1 q) := by
  have key : k1_pay1 (F := Ideal) v0 v5 v8
      = addf (F := Ideal) (matmul (F := Ideal) dot_S5000x128_S64x128_S5000x64_1_1_0_0_n_n none
          (truncf (F := Ideal) .bf16 (maximumf (F := Ideal) (shapeCast S5000x128 v0 shapeCasts_S5000x128_S5000x128)
            (broadcast S5000x128 (Scalar.ofBits (F := Ideal) .f32 0x00000000#32))) bitsLt_bf16_f32)
          (truncf (F := Ideal) .bf16 v5 bitsLt_bf16_f32) (constant (F := Ideal) S5000x64 .f32 0x00000000#32))
        (broadcastTo S5000x64 (shapeCast S1x64 v8 shapeCasts_S64_S1x64) broadcasts_S1x64_S5000x64) := rfl
  rw [key, shapeCast_self]
  show FloatOps.matmul (F := Ideal) dot_S5000x128_S64x128_S5000x64_1_1_0_0_n_n none
        (truncf (F := Ideal) .bf16 (maximumf (F := Ideal) v0 (broadcast S5000x128 (Scalar.ofBits (F := Ideal) .f32 0x00000000#32))) bitsLt_bf16_f32)
        (truncf (F := Ideal) .bf16 v5 bitsLt_bf16_f32) (constant (F := Ideal) S5000x64 .f32 0x00000000#32) (ix2 p q)
      + broadcastTo S5000x64 (shapeCast S1x64 v8 shapeCasts_S64_S1x64) broadcasts_S1x64_S5000x64 (ix2 p q) = _
  refine congrArg₂ (· + ·) ?_ (row_broadcast_apply v8 _ _ p q)
  refine (Ideal.matmul_constant_zero_apply dot_S5000x128_S64x128_S5000x64_1_1_0_0_n_n none _ _ (ix2 p q)).trans ?_
  rw [← Equiv.sum_comp (ValueIdx.contrEquiv1 dot_S5000x128_S64x128_S5000x64_1_1_0_0_n_n 128 rfl rfl).symm]
  refine Finset.sum_congr rfl fun k _ => ?_
  have hk := ValueIdx.contrEquiv1_symm_val dot_S5000x128_S64x128_S5000x64_1_1_0_0_n_n 128 rfl rfl k
  have el : dot_S5000x128_S64x128_S5000x64_1_1_0_0_n_n.lhsIdx (ix2 p q) ((ValueIdx.contrEquiv1 dot_S5000x128_S64x128_S5000x64_1_1_0_0_n_n 128 rfl rfl).symm k) = ix2 p k := funext fun a => Fin.ext (by
    match a with
    | ⟨0, _⟩ => exact lhs0 _ _
    | ⟨1, _⟩ => exact (lhs1 _ _).trans hk)
  have er : dot_S5000x128_S64x128_S5000x64_1_1_0_0_n_n.rhsIdx (ix2 p q) ((ValueIdx.contrEquiv1 dot_S5000x128_S64x128_S5000x64_1_1_0_0_n_n 128 rfl rfl).symm k) = ix2 q k := funext fun a => Fin.ext (by
    match a with
    | ⟨0, _⟩ => exact rhs0 _ _
    | ⟨1, _⟩ => exact (rhs1 _ _).trans hk)
  show max (v0 (dot_S5000x128_S64x128_S5000x64_1_1_0_0_n_n.lhsIdx (ix2 p q) _)) (FloatOps.ofBits (F := Ideal) .f32 0x00000000#32) * v5 (dot_S5000x128_S64x128_S5000x64_1_1_0_0_n_n.rhsIdx (ix2 p q) _) = _
  rw [el, er]

/-- The body's stored value at an index of the block is the reference's second linear layer (after its ReLU) at an index
    of the array, whenever the row of the aggregate, the row of W2 and the entry of b2 that the two read agree. -/
theorem point (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (v0 : Vec Ideal S5000x128 .f32) (v5 : Vec Ideal S64x128 .f32) (v8 : Vec Ideal S64 .f32)
    (j : S5000x64.Idx) (i : Cert.ReferenceIdeal.S100000x64.Idx)
    (h0 : ∀ k : Fin 128, v0 (ix2 (j 0) k) = Cert.ReferenceIdeal.Read.val_main_v21 (F := Ideal) x0 x1 x2 x3 x4 (ix2 (i 0) k))
    (h5 : ∀ k : Fin 128, v5 (ix2 (j 1) k) = x5 (ix2 (i 1) k))
    (h8 : v8 (ix1 (j 1)) = x6 (ix1 (i 1))) :
    k1_pay1 (F := Ideal) v0 v5 v8 j = Cert.ReferenceIdeal.Read.val_main_v27 (F := Ideal) x0 x1 x2 x3 x4 x5 x6 i :=
  calc k1_pay1 (F := Ideal) v0 v5 v8 j
      = k1_pay1 (F := Ideal) v0 v5 v8 (ix2 (j 0) (j 1)) := congrArg _ (eq_ix2 j)
    _ = (∑ k : Fin 128, max (v0 (ix2 (j 0) k)) (FloatOps.ofBits (F := Ideal) .f32 0x00000000#32) * v5 (ix2 (j 1) k)) + v8 (ix1 (j 1)) :=
        pay_apply v0 v5 v8 (j 0) (j 1)
    _ = (∑ k : Fin 128, max (Cert.ReferenceIdeal.Read.val_main_v21 (F := Ideal) x0 x1 x2 x3 x4 (ix2 (i 0) k)) (FloatOps.ofBits (F := Ideal) .f32 0x00000000#32) * x5 (ix2 (i 1) k)) + x6 (ix1 (i 1)) :=
        congrArg₂ (· + ·) (Finset.sum_congr rfl fun k _ => congrArg₂ (· * ·) (congrArg (max · _) (h0 k)) (h5 k)) h8
    _ = Cert.ReferenceIdeal.Read.val_main_v27 (F := Ideal) x0 x1 x2 x3 x4 x5 x6 (ix2 (i 0) (i 1)) :=
        (Cert.ReferenceIdeal.Stages.lin2_apply x0 x1 x2 x3 x4 x5 x6 (i 0) (i 1)).symm
    _ = Cert.ReferenceIdeal.Read.val_main_v27 (F := Ideal) x0 x1 x2 x3 x4 x5 x6 i := congrArg _ (eq_ix2 i).symm

/-- The block indices over the grid: the rows of the aggregate and of the output move with the grid point, everything
    else stays at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- If the body's stored value, at every index of every point's block, is an array G at the block's array index, then what
    point t writes back is block t of G. -/
theorem flushed_of_point (c : Dev nD) (G : (⟨Cert.ReferenceIdeal.S100000x64, .f32⟩ : BufTy).Contents (Elt Ideal))
    (hG : ∀ (t : Fin cfg1.N) (j : S5000x64.Idx),
      k1_pay1 (F := Ideal) (iblk1 V c 0 t) (iblk1 V c 1 t) (iblk1 V c 2 t) j = G (((cfg1.win 3).blk t).view.emb j))
    (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero hz2]
  simp only [View.ld_unit_zero (S := S5000x128) hz2, View.ld_unit_zero (S := S64x128) hz2, View.ld_unit_zero (S := S64) hz1]
  funext j
  exact hG t j

/-- The body's stored value at an index of point t's block is the reference's second linear layer at the block's array
    index, when the region finds the reference's first aggregate, W2 and b2: the block of the aggregate that point t
    loads holds the rows the output block names, and the whole of W2 and b2 are loaded at every point. -/
theorem stored_eq (c : Dev nD) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (hV : V c main_v17 = Cert.ReferenceIdeal.Read.val_main_v21 (F := Ideal) x0 x1 x2 x3 x4) (hW : V c main_arg5 = x5) (hb : V c main_arg6 = x6)
    (t : Fin cfg1.N) (j : S5000x64.Idx) :
    k1_pay1 (F := Ideal) (iblk1 V c 0 t) (iblk1 V c 1 t) (iblk1 V c 2 t) j
      = Cert.ReferenceIdeal.Read.val_main_v27 (F := Ideal) x0 x1 x2 x3 x4 x5 x6 (((cfg1.win 3).blk t).view.emb j) := by
  obtain ⟨e00, e01, e10, e11, e20, e30, e31⟩ := idx_facts t
  refine point x0 x1 x2 x3 x4 x5 x6 _ _ _ j _ (fun k => ?_) (fun k => ?_) ?_
  · show V c main_v17 (((cfg1.win 0).blk t).view.emb (ix2 (j 0) k)) = _
    refine (congrFun hV _).trans ?_
    refine congrArg (Cert.ReferenceIdeal.Read.val_main_v21 (F := Ideal) x0 x1 x2 x3 x4) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_arg5 (((cfg1.win 1).blk t).view.emb (ix2 (j 1) k)) = _
    refine (congrFun hW _).trans ?_
    refine congrArg x5 (funext fun a => Fin.ext ?_)
    match a with
    | ⟨0, _⟩ => show win1_1.index t (0 : Fin 2) * 64 + 1 * (j 1).val = win1_3.index t (1 : Fin 2) * 64 + 1 * (j 1).val; omega
    | ⟨1, _⟩ => show win1_1.index t (1 : Fin 2) * 128 + 1 * k.val = k.val; omega
  · show V c main_arg6 (((cfg1.win 2).blk t).view.emb (ix1 (j 1))) = _
    refine (congrFun hb _).trans ?_
    refine congrArg x6 (funext fun a => Fin.ext ?_)
    match a with
    | ⟨0, _⟩ => show win1_2.index t (0 : Fin 1) * 64 + 1 * (j 1).val = win1_3.index t (1 : Fin 2) * 64 + 1 * (j 1).val; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v18).slice (win1_3.rect t)).set ↔ _
  rw [View.set_slice_whole, Rect.mem_set_unit]
  exact Iff.rfl

/-- Row r of the output lies in the block of point r / 5000: the twenty row blocks tile the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  have ht : (i 0).val / 5000 < grid1.N := by omega
  refine ⟨⟨(i 0).val / 5000, ht⟩, flush1_3 _, ?_⟩
  rw [mem_blk]
  obtain ⟨-, -, -, -, -, e30, e31⟩ := idx_facts ⟨(i 0).val / 5000, ht⟩
  have e30' : win1_3.index ⟨(i 0).val / 5000, ht⟩ (0 : Fin 2) = (i 0).val / 5000 := e30
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 64 ≤ (i 1).val ∧ (i 1).val < win1_3.index ⟨(i 0).val / 5000, ht⟩ (1 : Fin 2) * 64 + 64; omega

/-- After the region, its output array is the reference's second linear layer, when the region found the reference's
    first aggregate, W2 and b2. -/
theorem final (c : Dev nD) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (hV : V c main_v17 = Cert.ReferenceIdeal.Read.val_main_v21 (F := Ideal) x0 x1 x2 x3 x4) (hW : V c main_arg5 = x5) (hb : V c main_arg6 = x6) :
    (dat1 V c).arrAt 3 cfg1.N = Cert.ReferenceIdeal.Read.val_main_v27 (F := Ideal) x0 x1 x2 x3 x4 x5 x6 :=
  (dat1 V c).arrAt_eq_of_cover 3 _ (fun t _ => flushed_of_point V c _ (stored_eq V c x0 x1 x2 x3 x4 x5 x6 hV hW hb) t) cover

end Cert.KernelIdeal.Linear2

end
-- ==== Proof.Normalize.lean ====
/-
  The row-normalizing region. Point t of its twenty loads rows 5000·t … 5000·t + 4999 of the second aggregate z and
  stores, for each of those rows, z[r, ·] / max(sqrt(Σ_k z[r, k]²), ε). The lane sum starts from the neutral zero, so at
  the ideal values it is the plain sum over the 64 columns; the reference's sum starts from a literal zero, and 0 + s = s
  on the extended reals. Square root, maximum, the literal ε and the quotient are the same operations on both sides. The
  twenty row blocks tile the output array.
-/
import proofs.«153355_j43705587204594_1_alg».proof.Proof.Gen.KernelIdeal.Frame
import proofs.«153355_j43705587204594_1_alg».proof.Proof.Gen.ReferenceIdeal.Read
import proofs.«153355_j43705587204594_1_alg».proof.Proof.RefStages
import proofs.«153355_j43705587204594_1_alg».proof.Proof.Linear1
import proofs.«153355_j43705587204594_1_alg».proof.Proof.LibLayout
import Idealize.ShloMosaic.Lib.ValueIdx
import Idealize.ShloMosaic.Lib.Pipeline.Value
import Idealize.ShloMosaic.PureOps.Ideal.Laws

set_option maxRecDepth 16384

noncomputable section

namespace Cert.KernelIdeal.Normalize

open Idealize.ShloMosaic Idealize.ShloMosaic.TcCoe Idealize.SL.Sem Idealize.ShloMosaic.ValueIdx
open Cert.KernelIdeal Cert.KernelIdeal.Gen
open Cert.KernelIdeal.Linear1 (hz2)
open Cert.Lib.Layout (col_cast_apply col_broadcast_apply)

/-- The lane sum of a [5000, 64] block at row p, at the ideal values: the sum over the 64 columns. -/
theorem row_sum_apply (src : FVec Ideal S5000x64 .f32) (hacc : (0x00000000#32 : BitVec 32) = 0x00000000#32) (p : Fin 5000) :
    multiReduction (F := Ideal) .add [1] S5000 src 0x00000000#32 reduces_S5000x64_S5000 (.inl rfl) hacc (ix1 p)
      = ∑ k : Fin 64, src (ix2 p k) :=
  (Ideal.multiReduction_add_single src 0x00000000#32 reduces_S5000x64_S5000 (.inl rfl) hacc (ix1 p)).trans
    (Finset.sum_congr rfl fun k _ => congrArg src (funext fun a => Fin.ext (by
      match a with
      | ⟨0, _⟩ => rfl
      | ⟨1, _⟩ => rfl)))

/-- The body's stored value at (p, q): z[p, q] / max(sqrt(Σ_k z[p, k]²), ε). -/
theorem pay_apply (v0 : Vec Ideal S5000x64 .f32) (p : Fin 5000) (q : Fin 64) :
    k2_pay1 (F := Ideal) v0 (ix2 p q)
      = Ideal.div (v0 (ix2 p q)) (max (Ideal.sqrt (∑ k : Fin 64, v0 (ix2 p k) * v0 (ix2 p k))) (FloatOps.ofBits (F := Ideal) .f32 0x2B8CBCCC#32)) := by
  have key : k2_pay1 (F := Ideal) v0
      = divf (F := Ideal) (shapeCast S5000x64 v0 shapeCasts_S5000x64_S5000x64)
          (broadcastTo S5000x64 (maximumf (F := Ideal) (sqrt (F := Ideal) (shapeCast S5000x1
              (multiReduction (F := Ideal) .add [1] S5000
                (mulf (F := Ideal) (shapeCast S5000x64 v0 shapeCasts_S5000x64_S5000x64) (shapeCast S5000x64 v0 shapeCasts_S5000x64_S5000x64))
                0x00000000#32 reduces_S5000x64_S5000 (.inl rfl) rfl)
              shapeCasts_S5000_S5000x1))
            (broadcast S5000x1 (Scalar.ofBits (F := Ideal) .f32 0x2B8CBCCC#32))) broadcasts_S5000x1_S5000x64) := rfl
  rw [key, shapeCast_self]
  show Ideal.div (v0 (ix2 p q)) (broadcastTo S5000x64 _ broadcasts_S5000x1_S5000x64 (ix2 p q)) = _
  refine congrArg (Ideal.div (v0 (ix2 p q))) ?_
  refine (col_broadcast_apply _ _ p q).trans ?_
  show max (Ideal.sqrt (shapeCast S5000x1 _ shapeCasts_S5000_S5000x1 (ix2 p (0 : Fin 1)))) (FloatOps.ofBits (F := Ideal) .f32 0x2B8CBCCC#32) = _
  refine congrArg (fun s => max (Ideal.sqrt s) (FloatOps.ofBits (F := Ideal) .f32 0x2B8CBCCC#32)) ?_
  refine (col_cast_apply _ _ p).trans ?_
  refine (row_sum_apply _ rfl p).trans ?_
  rfl

/-- The body's stored value at an index of the block is the reference's normalized row at an index of the array,
    whenever the two read the same row of the aggregate and the same column. -/
theorem point (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (v0 : Vec Ideal S5000x64 .f32) (j : S5000x64.Idx) (i : Cert.ReferenceIdeal.S100000x64.Idx)
    (h0 : ∀ k : Fin 64, v0 (ix2 (j 0) k) = Cert.ReferenceIdeal.Read.val_main_v44 (F := Ideal) x0 x1 x2 x3 x4 x5 x6 (ix2 (i 0) k))
    (hc : (j 1 : Fin 64) = (i 1 : Fin 64)) :
    k2_pay1 (F := Ideal) v0 j = Cert.ReferenceIdeal.Read.val_main_v52 (F := Ideal) x0 x1 x2 x3 x4 x5 x6 i := by
  have hs : (∑ k : Fin 64, v0 (ix2 (j 0) k) * v0 (ix2 (j 0) k))
      = ∑ k : Fin 64, Cert.ReferenceIdeal.Read.val_main_v44 (F := Ideal) x0 x1 x2 x3 x4 x5 x6 (ix2 (i 0) k) * Cert.ReferenceIdeal.Read.val_main_v44 (F := Ideal) x0 x1 x2 x3 x4 x5 x6 (ix2 (i 0) k) :=
    Finset.sum_congr rfl fun k _ => by rw [h0 k]
  have hz : (FloatOps.ofBits (F := Ideal) .f32 0x00000000#32 : EReal) = 0 := Ideal.ofBits_zero_f32
  calc k2_pay1 (F := Ideal) v0 j
      = k2_pay1 (F := Ideal) v0 (ix2 (j 0) (j 1)) := congrArg _ (eq_ix2 j)
    _ = Ideal.div (v0 (ix2 (j 0) (j 1))) (max (Ideal.sqrt (∑ k : Fin 64, v0 (ix2 (j 0) k) * v0 (ix2 (j 0) k))) (FloatOps.ofBits (F := Ideal) .f32 0x2B8CBCCC#32)) :=
        pay_apply v0 (j 0) (j 1)
    _ = Ideal.div (Cert.ReferenceIdeal.Read.val_main_v44 (F := Ideal) x0 x1 x2 x3 x4 x5 x6 (ix2 (i 0) (i 1)))
          (max (Ideal.sqrt (FloatOps.ofBits (F := Ideal) .f32 0x00000000#32
              + ∑ k : Fin 64, Cert.ReferenceIdeal.Read.val_main_v44 (F := Ideal) x0 x1 x2 x3 x4 x5 x6 (ix2 (i 0) k) * Cert.ReferenceIdeal.Read.val_main_v44 (F := Ideal) x0 x1 x2 x3 x4 x5 x6 (ix2 (i 0) k)))
            (FloatOps.ofBits (F := Ideal) .f32 0x2B8CBCCC#32)) := by
        rw [hz, zero_add, hs, h0 (j 1), hc]
    _ = Cert.ReferenceIdeal.Read.val_main_v52 (F := Ideal) x0 x1 x2 x3 x4 x5 x6 (ix2 (i 0) (i 1)) :=
        (Cert.ReferenceIdeal.Stages.norm_apply x0 x1 x2 x3 x4 x5 x6 (i 0) (i 1)).symm
    _ = Cert.ReferenceIdeal.Read.val_main_v52 (F := Ideal) x0 x1 x2 x3 x4 x5 x6 i := congrArg _ (eq_ix2 i).symm

/-- The block indices over the grid: the rows of the aggregate and of the output move with the grid point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- If the body's stored value, at every index of every point's block, is an array G at the block's array index, then what
    point t writes back is block t of G. -/
theorem flushed_of_point (c : Dev nD) (G : (⟨Cert.ReferenceIdeal.S100000x64, .f32⟩ : BufTy).Contents (Elt Ideal))
    (hG : ∀ (t : Fin cfg2.N) (j : S5000x64.Idx), k2_pay1 (F := Ideal) (iblk2 V c 0 t) j = G (((cfg2.win 1).blk t).view.emb j))
    (t : Fin cfg2.N) :
    (dat2 V c).flushed 1 t = ((cfg2.win 1).blk t).view.read (Elt Ideal) G := by
  show (cfg2.win 1).cut (grid2.coords t) ((dat2 V c).after 1 t) = _
  rw [after2_1]
  unfold out2_1
  rw [View.canon_unit_zero hz2]
  simp only [View.ld_unit_zero (S := S5000x64) hz2]
  funext j
  exact hG t j

/-- The body's stored value at an index of point t's block is the reference's result at the block's array index, when
    the region finds the reference's second aggregate: the block point t loads holds the rows the output block names. -/
theorem stored_eq (c : Dev nD) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (hV : V c main_v35 = Cert.ReferenceIdeal.Read.val_main_v44 (F := Ideal) x0 x1 x2 x3 x4 x5 x6) (t : Fin cfg2.N) (j : S5000x64.Idx) :
    k2_pay1 (F := Ideal) (iblk2 V c 0 t) j
      = Cert.ReferenceIdeal.Read.val_main_v52 (F := Ideal) x0 x1 x2 x3 x4 x5 x6 (((cfg2.win 1).blk t).view.emb j) := by
  obtain ⟨e00, e01, e10, e11⟩ := idx_facts t
  refine point x0 x1 x2 x3 x4 x5 x6 _ j _ (fun k => ?_) ?_
  · show V c main_v35 (((cfg2.win 0).blk t).view.emb (ix2 (j 0) k)) = _
    refine (congrFun hV _).trans ?_
    refine congrArg (Cert.ReferenceIdeal.Read.val_main_v44 (F := Ideal) x0 x1 x2 x3 x4 x5 x6) (funext fun a => Fin.ext ?_)
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * k.val = k.val; omega
  · refine Fin.ext ?_
    show (j 1).val = win2_1.index t (1 : Fin 2) * 64 + 1 * (j 1).val
    omega

/-- An index of the output array is in point t's block iff each coordinate is in the block's range on its axis. -/
theorem mem_blk (t : Fin cfg2.N) (i : S100000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v36).slice (win2_1.rect t)).set ↔ _
  rw [View.set_slice_whole, Rect.mem_set_unit]
  exact Iff.rfl

/-- Row r of the output lies in the block of point r / 5000: the twenty row blocks tile the array. -/
theorem cover (i : S100000x64.Idx) : ∃ t : Fin cfg2.N, (cfg2.win 1).flush t = true ∧ i ∈ ((cfg2.win 1).blk t).view.set := by
  have hi0 : (i 0).val < 100000 := (i 0).isLt
  have hi1 : (i 1).val < 64 := (i 1).isLt
  have hN : grid2.N = 20 := N_2
  have ht : (i 0).val / 5000 < grid2.N := by omega
  refine ⟨⟨(i 0).val / 5000, ht⟩, flush2_1 _, ?_⟩
  rw [mem_blk]
  obtain ⟨-, -, e10, e11⟩ := idx_facts ⟨(i 0).val / 5000, ht⟩
  have e10' : win2_1.index ⟨(i 0).val / 5000, ht⟩ (0 : Fin 2) = (i 0).val / 5000 := e10
  intro a
  match a with
  | ⟨0, _⟩ => show win2_1.index ⟨(i 0).val / 5000, ht⟩ (0 : Fin 2) * 5000 ≤ (i 0).val ∧ (i 0).val < win2_1.index ⟨(i 0).val / 5000, ht⟩ (0 : Fin 2) * 5000 + 5000; omega
  | ⟨1, _⟩ => show win2_1.index ⟨(i 0).val / 5000, ht⟩ (1 : Fin 2) * 64 ≤ (i 1).val ∧ (i 1).val < win2_1.index ⟨(i 0).val / 5000, ht⟩ (1 : Fin 2) * 64 + 64; omega

/-- After the region, its output array is the reference's result, when the region found the reference's second aggregate. -/
theorem final (c : Dev nD) (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x256, .f32⟩ : BufTy).Contents (Elt Ideal))
    (x4 : (⟨Cert.ReferenceIdeal.S128, .f32⟩ : BufTy).Contents (Elt Ideal)) (x5 : (⟨Cert.ReferenceIdeal.S64x128, .f32⟩ : BufTy).Contents (Elt Ideal))
    (x6 : (⟨Cert.ReferenceIdeal.S64, .f32⟩ : BufTy).Contents (Elt Ideal))
    (hV : V c main_v35 = Cert.ReferenceIdeal.Read.val_main_v44 (F := Ideal) x0 x1 x2 x3 x4 x5 x6) :
    (dat2 V c).arrAt 1 cfg2.N = Cert.ReferenceIdeal.Read.val_main_v52 (F := Ideal) x0 x1 x2 x3 x4 x5 x6 :=
  (dat2 V c).arrAt_eq_of_cover 1 _ (fun t _ => flushed_of_point V c _ (stored_eq V c x0 x1 x2 x3 x4 x5 x6 hV) t) cover

end Cert.KernelIdeal.Normalize

end
-- ==== Proof.Value.lean ====
/-
  The idealized kernel's result as one function of its arguments. Boundary by boundary: after the first region the
  buffer it writes holds the reference's first linear layer of x, W1, b1; the first host stretch turns that, with the
  edge list and the edge weights, into the reference's first aggregate; the second region turns the aggregate, with W2
  and b2, into the reference's second linear layer (ReLU inside); the second host stretch into the second aggregate; the
  last region into the reference's normalized rows. No region or stretch writes an argument's buffer, so each stage reads
  the arguments as launched.
-/
import proofs.«153355_j43705587204594_1_alg».proof.Proof.KernelRun
import proofs.«153355_j43705587204594_1_alg».proof.Proof.Host
import proofs.«153355_j43705587204594_1_alg».proof.Proof.Linear1
import proofs.«153355_j43705587204594_1_alg».proof.Proof.Linear2
import proofs.«153355_j43705587204594_1_alg».proof.Proof.Normalize

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first region reads and writes none of these: they leave it as launched. -/
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)

/-- After the first region its output buffer holds the reference's first linear layer of the launched x, W1, b1. -/
theorem W1_v0 (c : Dev nD) :
    W1 m ρ c (Proc.devRef .tc main_v0) = Cert.ReferenceIdeal.Read.val_main_v4 (F := Ideal) (m ((c : Thread nD τ).loc main_arg0)) (m ((c : Thread nD τ).loc main_arg3)) (m ((c : Thread nD τ).loc main_arg4)) :=
  (W1_arr m ρ c 3).trans (Cert.KernelIdeal.Linear1.final (V0 m ρ) c _ _ _ rfl rfl rfl)

/-- The second region is entered with the reference's first aggregate, W2 and b2. -/
theorem V2_v17 (c : Dev nD) : V2 m ρ c main_v17 = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregate1 (W1 m ρ c) _ _ _ _ _ (W1_v0 m ρ c) (W1_arg1 m ρ c) (W1_arg2 m ρ c)
theorem V2_arg5 (c : Dev nD) : V2 m ρ c main_arg5 = m ((c : Thread nD τ).loc main_arg5) :=
  (hostOps1_keeps (W1 m ρ c)).2.2.1.trans (W1_arg5 m ρ c)
theorem V2_arg6 (c : Dev nD) : V2 m ρ c main_arg6 = m ((c : Thread nD τ).loc main_arg6) :=
  (hostOps1_keeps (W1 m ρ c)).2.2.2.trans (W1_arg6 m ρ c)

/-- After the second region its output buffer holds the reference's second linear layer. -/
theorem W3_v18 (c : Dev nD) : W3 m ρ c (Proc.devRef .tc main_v18) = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W3_arr m ρ c 3).trans (Cert.KernelIdeal.Linear2.final (V2 m ρ) c _ _ _ _ _ _ _ (V2_v17 m ρ c) (V2_arg5 m ρ c) (V2_arg6 m ρ c))
theorem W3_arg1 (c : Dev nD) : W3 m ρ c (Proc.devRef .tc main_arg1) = m ((c : Thread nD τ).loc main_arg1) :=
  (W3_of_ne m ρ c main_arg1 (by decide)).trans ((hostOps1_keeps (W1 m ρ c)).1.trans (W1_arg1 m ρ c))
theorem W3_arg2 (c : Dev nD) : W3 m ρ c (Proc.devRef .tc main_arg2) = m ((c : Thread nD τ).loc main_arg2) :=
  (W3_of_ne m ρ c main_arg2 (by decide)).trans ((hostOps1_keeps (W1 m ρ c)).2.1.trans (W1_arg2 m ρ c))

/-- The last region is entered with the reference's second aggregate. -/
theorem V4_v35 (c : Dev nD) : V4 m ρ c main_v35 = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  aggregate2 (W3 m ρ c) _ _ _ _ _ _ _ (W3_v18 m ρ c) (W3_arg1 m ρ c) (W3_arg2 m ρ c)

/-- The last boundary's contents at the result buffer: the reference's result of the launched arguments. -/
theorem result_eq (c : Dev nD) : W5 m ρ c (Proc.devRef .tc main_v36) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W5_arr m ρ c 1).trans (Cert.KernelIdeal.Normalize.final (V4 m ρ) c _ _ _ _ _ _ _ (V4_v35 m ρ c))

/-- Every weakly fair execution of the idealized kernel terminates with its result array at the reference's composed
    function of the launched arguments, and the arguments unchanged. -/
theorem run : θ_run defs (onTc (τ := τ) (main (F := Ideal))) ⟨m, fun _ => 0, ρ⟩ (fun r => ∀ c : Dev nD,
      r.2.mem ((c.tc : Thread nD τ).loc main_v36) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_named m ρ)

end Cert.KernelIdeal.Whole

end
-- ==== Proof.lean ====
/-
  A two-layer graph convolution with row normalization: out = normalize(A · (relu(A · (x W1ᵀ + b1)) W2ᵀ + b2)), where A is
  the sparse aggregation "gather the source rows of the edge list, scale by the edge weights, scatter-add into the
  destination rows" and normalize divides each row by max(its Euclidean norm, ε).

  The kernel computes the two dense layers and the normalization in three tiled regions (twenty row blocks of 5000 rows
  each) and leaves the two aggregations to the host; the reference computes everything on the host. At the ideal values
  the regions' matrix products into a zero accumulator are the host's contractions, their changes of float format are the
  identity, the ReLU inside the second region is the host's maximum with zero, and the lane sum from the neutral zero is
  the host's sum from a literal zero; the aggregations are the same host operations on both sides and are never opened.
  So stage by stage the kernel's buffers hold the reference's stages, and the two results are one function of the
  arguments, entry by entry, on all extended reals: no law used here needs the inputs to be finite.

  The frames of the two kernel programs are the generated ones; the reference's frame is its run with the result dropped;
  the idealization rewrote nothing, so it is preserved trivially.
-/
import proofs.«153355_j43705587204594_1_alg».proof.Defs
import proofs.«153355_j43705587204594_1_alg».proof.Proof.Gen.Kernel
import proofs.«153355_j43705587204594_1_alg».proof.Proof.Gen.Kernel.Skeleton
import proofs.«153355_j43705587204594_1_alg».proof.Proof.Gen.Kernel.Launch
import proofs.«153355_j43705587204594_1_alg».proof.Proof.Gen.Kernel.Points
import proofs.«153355_j43705587204594_1_alg».proof.Proof.Gen.Kernel.Frame
import proofs.«153355_j43705587204594_1_alg».proof.Proof.Gen.KernelIdeal
import proofs.«153355_j43705587204594_1_alg».proof.Proof.Gen.KernelIdeal.Skeleton
import proofs.«153355_j43705587204594_1_alg».proof.Proof.Gen.KernelIdeal.Launch
import proofs.«153355_j43705587204594_1_alg».proof.Proof.Gen.KernelIdeal.Points
import proofs.«153355_j43705587204594_1_alg».proof.Proof.Gen.KernelIdeal.Frame
import proofs.«153355_j43705587204594_1_alg».proof.Proof.Gen.ReferenceIdeal
import proofs.«153355_j43705587204594_1_alg».proof.Proof.Gen.ReferenceIdeal.Run
import proofs.«153355_j43705587204594_1_alg».proof.Proof.Gen.ReferenceIdeal.Read
import proofs.«153355_j43705587204594_1_alg».proof.Proof.Gen.Pre_finite_inputs
import proofs.«153355_j43705587204594_1_alg».proof.Proof.Value
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, the kernel's result array and the reference's both end at the reference's
    composed function of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v52_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
